-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x1024x2048 : Shape := ⟨4, ![32, 1, 1024, 2048]⟩
abbrev S_ : Shape := ⟨0, ![]⟩

class Facts : Prop where
  bcast_S_S32x1x1024x2048 : S_.BroadcastsInDim S32x1x1024x2048 (![] : Fin 0 → Fin S32x1x1024x2048.rank)
  reducesTo_S32x1x1024x2048_S_d0_1_2_3 : S32x1x1024x2048.ReducesTo [0, 1, 2, 3] S_
  h_S_ : 0 < S_.numel

variable [Facts]

def fn {F : FTy → Type} [FloatOps F] (main_arg0 : FVec F S32x1x1024x2048 .f32) : IVec S_ 1 :=
  let main_v0 : FVec F S32x1x1024x2048 .f32 := Host.absf main_arg0
  let main_cst : FVec F S_ .f32 := constant S_ .f32 0x7F800000#32
  let main_v1 : FVec F S32x1x1024x2048 .f32 := broadcastInDim S32x1x1024x2048 ![] bcast_S_S32x1x1024x2048 main_cst
  let main_v2 : IVec S32x1x1024x2048 1 := cmpf .olt main_v0 main_v1
  let main_c : IVec S_ 1 := constantI S_ 1 1#1
  let main_v3 : IVec S_ 1 := (fun x v => Host.reduce IntOp.andi x v reducesTo_S32x1x1024x2048_S_d0_1_2_3 h_S_) main_v2 main_c
  main_v3
-- ==== Kernel.lean ====
abbrev S32x1x1024x2048 : Shape := ⟨4, ![32, 1, 1024, 2048]⟩
abbrev S1x1x1024x512 : Shape := ⟨4, ![1, 1, 1024, 512]⟩
abbrev S1024x512 : Shape := ⟨2, ![1024, 512]⟩

abbrev nBuf : Space → Nat
  | .hbm => 2
  | .vmem => 4
  | .smem => 0
  | _ => 0

abbrev bufTy : (tb : Table) → Fin (tcTables nBuf tb) → BufTy
  | .hbm, ⟨0, _⟩ => ⟨S32x1x1024x2048, .f32⟩
  | .hbm, ⟨1, _⟩ => ⟨S32x1x1024x2048, .f32⟩
  | .local _ .vmem, ⟨0, _⟩ => ⟨S1x1x1024x512, .f32⟩
  | .local _ .vmem, ⟨1, _⟩ => ⟨S1x1x1024x512, .f32⟩
  | .local _ .vmem, ⟨2, _⟩ => ⟨S1x1x1024x512, .f32⟩
  | .local _ .vmem, ⟨3, _⟩ => ⟨S1x1x1024x512, .f32⟩
  | _, _ => ⟨S32x1x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![32, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x1x1024x512_S1x1x1024x512_0_0_0_0 : ∀ a, (![0, 0, 0, 0] : Fin 4 → Nat) a + S1x1x1024x512.size a ≤ S1x1x1024x512.size a
  h_S1x1x1024x512 : 0 < S1x1x1024x512.numel
  shapeCasts_S1x1x1024x512_S1024x512 : S1x1x1024x512.ShapeCasts S1024x512
  iota_S1024x512_d0_w32 : S1024x512.Iotas .tc 32 [0]
  rotates_S1024x512_d0 : S1024x512.Rotates 0 none
  shapeCasts_S1024x512_S1x1x1024x512 : S1024x512.ShapeCasts S1x1x1024x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x512.size a ≤ S32x1x1024x2048.size a
  hwx0_0 : ∀ i : grid0.Coords, EltTy.bits .f32 = 32 ∨ (Rect.block (s := S32x1x1024x2048) S1x1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024x512.size a ≤ S32x1x1024x2048.size a
  hwx0_1 : ∀ i : grid0.Coords, EltTy.bits .f32 = 32 ∨ (Rect.block (s := S32x1x1024x2048) S1x1x1024x512.size (cc0_transform_1 i) (hinb0_1 i)).WholeWords (EltTy.packing .f32)

variable [Facts₀]

abbrev win0_0 : Pipeline.Window sig grid0 :=
  Pipeline.Window.ofSpec (Memref.whole main_arg0) S1x1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x1024x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x1x1024x2048 : Shape := ⟨4, ![32, 1, 1024, 2048]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S32x1x1024x2048, .f32⟩
  | .hbm, ⟨1, _⟩ => ⟨S_, .f32⟩
  | .hbm, ⟨2, _⟩ => ⟨S_, .f32⟩
  | .hbm, ⟨3, _⟩ => ⟨S32x1x1024x2048, .f32⟩
  | _, _ => ⟨S32x1x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_cst : Ref sig .tc := ⟨.hbm, 1, rfl⟩
abbrev main_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S32x1x1024x2048_S32x1x1024x2048_w1s1p0_0_w1s1p0_0_w1024s1p1023_0_w1s1p0_0 : S32x1x1024x2048.ReduceWindows (![1, 1, 1024, 1] : Fin 4 → Nat) ![1, 1, 1, 1] ![0, 0, 1023, 0] ![0, 0, 0, 0] S32x1x1024x2048
  h_S_ : 0 < S_.numel

variable [Facts₀]

class Facts : Prop extends Facts₀ where

variable [Facts]
-- ==== Proof.LibPrefixMax.lean ====
/-
  Running maxima in a semilattice with a least element, in the two forms a program computes them.

  * A left fold of `⊔` over a list, from any starting value `a`, is `a ⊔` the supremum of the list's
    entries (`foldl_sup_eq_sup_toFinset`); over all of `Fin n` in order it is the supremum over
    `Finset.univ` (`foldl_sup_finRange`).
  * The window `win c m r` is the supremum of `c` over the `m` naturals ending at `r`, cut off at
    zero: `c (r + 1 - m) ⊔ … ⊔ c r`. Two windows of length `m`, one ending at `r` and one ending at
    `r - m`, make the window of length `2 * m` ending at `r` (`win_sup_win`); where `r < m` the
    window already starts at zero and doubling its length changes nothing (`win_of_lt`). This is the
    step of a doubling (Hillis–Steele) scan: after the steps `m = 1, 2, 4, …, 2 ^ (k - 1)` every entry
    holds its window of length `2 ^ k`, which is the whole prefix `c 0 ⊔ … ⊔ c r` once `r < 2 ^ k`
    (`win_eq_prefix`).
  Only associativity, commutativity and idempotence of `⊔` are used: nothing here asks the entries
  to be finite.
-/
import Mathlib.Order.Interval.Finset.Nat
import Mathlib.Data.Finset.Lattice.Fold
import Mathlib.Data.List.FinRange
import Mathlib.Data.Fintype.Basic

namespace Cert.LibPrefixMax

variable {α : Type*} [SemilatticeSup α] [OrderBot α]

/-- A left fold of `⊔` from `a` over the entries `g n`, `n` running through a list, is `a ⊔` the
    supremum of `g` over the list's members. -/
theorem foldl_sup_eq_sup_toFinset {ι : Type*} [DecidableEq ι] (g : ι → α) (l : List ι) (a : α) :
    l.foldl (fun r n => r ⊔ g n) a = a ⊔ l.toFinset.sup g := by
  induction l generalizing a with
  | nil => simp
  | cons h t ih =>
    rw [List.foldl_cons, ih, List.toFinset_cons, Finset.sup_insert, sup_assoc]

/-- Over all of `Fin n`, in order, from the least element: the supremum of every entry. -/
theorem foldl_sup_finRange {n : ℕ} (g : Fin n → α) :
    (List.finRange n).foldl (fun r k => r ⊔ g k) ⊥ = Finset.univ.sup g := by
  rw [foldl_sup_eq_sup_toFinset, List.toFinset_finRange, bot_sup_eq]

/-- The supremum of `c` over the `m` naturals ending at `r` (fewer when that would pass zero). -/
def win (c : ℕ → α) (m r : ℕ) : α := (Finset.Icc (r + 1 - m) r).sup c

/-- A window of length one is the entry itself. -/
theorem win_one (c : ℕ → α) (r : ℕ) : win c 1 r = c r := by
  unfold win
  rw [Nat.add_sub_cancel, Finset.Icc_self, Finset.sup_singleton]

/-- Two adjacent windows of length `m` make the window of length `2 * m`. -/
theorem win_sup_win (c : ℕ → α) {m r : ℕ} (hm : 0 < m) (h : m ≤ r) :
    win c m r ⊔ win c m (r - m) = win c (2 * m) r := by
  unfold win
  rw [sup_comm, ← Finset.sup_union]
  congr 1
  ext k
  simp only [Finset.mem_union, Finset.mem_Icc]
  omega

/-- Where the window already reaches zero, a longer one is the same. -/
theorem win_of_lt (c : ℕ → α) {m m' r : ℕ} (h : r < m) (h' : m ≤ m') : win c m r = win c m' r := by
  unfold win
  congr 1
  ext k
  simp only [Finset.mem_Icc]
  omega

/-- A window at least as long as `r + 1` is the whole prefix `c 0 ⊔ … ⊔ c r`. -/
theorem win_eq_prefix (c : ℕ → α) {m r : ℕ} (h : r < m) : win c m r = (Finset.range (r + 1)).sup c := by
  unfold win
  congr 1
  ext k
  simp only [Finset.mem_Icc, Finset.mem_range]
  omega

/-- One step of the doubling scan: entry `r` takes the entry `m` places before it when there is one
    and keeps its own otherwise; windows of length `m` become windows of length `2 * m`. -/
theorem step_win (c : ℕ → α) {m : ℕ} (hm : 0 < m) (r : ℕ) :
    (if m ≤ r then win c m r ⊔ win c m (r - m) else win c m r) = win c (2 * m) r := by
  split
  · next h => exact win_sup_win c hm h
  · next h => exact win_of_lt c (by omega) (by omega)

end Cert.LibPrefixMax
-- ==== Proof.Stage.lean ====
/-
  One step of the doubling scan on a block of 1024 rows by 512 lanes, as the vector unit spells it, and the
  ten steps together.

  A step with amount `d` rotates the block down its rows by `d` (row `p` of the rotated block is row
  `p - d` of the block, around the end), takes the entrywise maximum of the block and its rotation, and
  keeps that maximum in the rows `p ≥ d` — the row number read off an iota and compared as a signed word —
  and the block's own entry in the rows above. So at row `p`, lane `q`, the step gives
  `max (y p q) (y (p - d) q)` when `d ≤ p` and `y p q` otherwise (`scanStep_apply`): the wrapped-around
  rows are exactly the ones the comparison discards.

  Reading a lane as a sequence `c 0, c 1, …` down the rows, if every entry `(p, q)` holds the maximum of
  the `m` entries of its lane ending at row `p` (`IsWin c m y`), then after the step with amount `m` it
  holds the maximum of the `2 * m` entries ending there (`IsWin.step`). From windows of length one, the
  steps 1, 2, 4, …, 512 reach windows of length 1024, which from any row reach row zero: the running maximum
  `max (c 0) … (c p)` (`scan10_apply`).
-/
import Idealize.ShloMosaic.Lib.ValueIdx
import Idealize.ShloMosaic.Lib.KernelVsHost
import Idealize.ShloMosaic.Lib.Pipeline.Value
import Idealize.ShloMosaic.Lib.Affine
import proofs.«134793_j49452253446764_1_alg».proof.Proof.LibPrefixMax

noncomputable section

namespace Cert.Scan

open Idealize.ShloMosaic Idealize.ShloMosaic.ValueIdx Cert.LibPrefixMax

/-- The block as the body sees it: 1024 rows (the scanned axis) by 512 lanes. -/
abbrev SB : Shape := ⟨2, ![1024, 512]⟩

/-- One step of the scan with amount `sb`: the maximum with the block rotated down by `sb` rows, kept
    where the row number is at least `sb`. -/
def scanStep (hi : SB.Iotas .tc 32 [0]) (hr : SB.Rotates 0 none) (sb : BitVec 32) (y : FVec Ideal SB .f32) :
    FVec Ideal SB .f32 :=
  select (cmpi .sge (iota .tc SB 32 [0] hi) (broadcast SB sb)) (maximumf y (dynamicRotate 0 sb none y hr)) y

/-- The step at row `p`, lane `q`. -/
theorem scanStep_apply (hi : SB.Iotas .tc 32 [0]) (hr : SB.Rotates 0 none) (sb : BitVec 32) (d : ℕ)
    (hd : sb.toNat = d) (hlt : d < 1024) (y : FVec Ideal SB .f32) (p : Fin 1024) (q : Fin 512) :
    scanStep hi hr sb y (ix2 p q) =
      if d ≤ p.val then max (y (ix2 p q)) (y (ix2 ⟨p.val - d, lt_of_le_of_lt (Nat.sub_le _ _) p.isLt⟩ q))
      else y (ix2 p q) := by
  have hp := p.isLt
  unfold scanStep
  rw [select_apply]
  show Scalar.select (IntOp.cmpi .sge (iota .tc SB 32 [0] hi (ix2 p q)) sb)
    (max (y (ix2 p q)) (dynamicRotate 0 sb none y hr (ix2 p q))) (y (ix2 p q)) = _
  rw [iota_single_apply]
  show Scalar.select (IntOp.cmpi .sge (BitVec.ofNat 32 p.val) sb) _ _ = _
  by_cases h : d ≤ p.val
  · have hc : IntOp.cmpi .sge (BitVec.ofNat 32 p.val) sb = 1#1 := by
      rw [IntOp.cmpi_sge, BitVec.toInt_eq_toNat_cond, BitVec.toInt_eq_toNat_cond, BitVec.toNat_ofNat]
      omega
    rw [hc, select_one, if_pos h]
    congr 1
    refine dynamicRotate_apply 0 sb y hr (ix2 p q) _ (fun b => ?_)
    match b with
    | ⟨0, h0⟩ =>
      have e : (⟨0, h0⟩ : Fin SB.rank) = 0 := rfl
      rw [if_pos e]
      show p.val - d = (p.val + 1024 - sb.toNat % 1024) % 1024
      omega
    | ⟨1, h1⟩ =>
      have e : ¬ (⟨1, h1⟩ : Fin SB.rank) = 0 := fun e => absurd (congrArg Fin.val e) Nat.one_ne_zero
      rw [if_neg e]
  · have hc : IntOp.cmpi .sge (BitVec.ofNat 32 p.val) sb = 0#1 := by
      refine eq_zero_of_ne_one fun hc => h ?_
      rw [IntOp.cmpi_sge, BitVec.toInt_eq_toNat_cond, BitVec.toInt_eq_toNat_cond, BitVec.toNat_ofNat] at hc
      omega
    rw [hc, select_zero, if_neg h]

/-- Every entry `(p, q)` of `y` is the maximum of the `m` entries of lane `q`'s sequence `c q` ending at
    row `p`. -/
def IsWin (c : Fin 512 → ℕ → EReal) (m : ℕ) (y : FVec Ideal SB .f32) : Prop :=
  ∀ (p : Fin 1024) (q : Fin 512), y (ix2 p q) = win (c q) m p.val

/-- The step with amount `m` doubles the windows. -/
theorem IsWin.step {c : Fin 512 → ℕ → EReal} {m : ℕ} {y : FVec Ideal SB .f32} (h : IsWin c m y)
    (hi : SB.Iotas .tc 32 [0]) (hr : SB.Rotates 0 none) (sb : BitVec 32) (hd : sb.toNat = m) (h0 : 0 < m)
    (hlt : m < 1024) : IsWin c (2 * m) (scanStep hi hr sb y) := by
  intro p q
  rw [scanStep_apply hi hr sb m hd hlt y p q, h p q, h ⟨p.val - m, _⟩ q, ← step_win (c q) h0 p.val]

/-- The lanes of a block as sequences down the rows (`⊥`, the maximum's neutral element, past the last
    row: no window of a row below 1024 reaches there). -/
def lanes (y : FVec Ideal SB .f32) (q : Fin 512) (k : ℕ) : EReal :=
  if h : k < 1024 then y (ix2 ⟨k, h⟩ q) else ⊥

/-- A block holds its own lanes' windows of length one. -/
theorem isWin_one (y : FVec Ideal SB .f32) : IsWin (lanes y) 1 y := by
  intro p q
  rw [win_one]
  unfold lanes
  rw [dif_pos p.isLt]

/-- The ten steps 1, 2, 4, …, 512. -/
def scan10 (hi : SB.Iotas .tc 32 [0]) (hr : SB.Rotates 0 none) (y : FVec Ideal SB .f32) : FVec Ideal SB .f32 :=
  scanStep hi hr 512#32 (scanStep hi hr 256#32 (scanStep hi hr 128#32 (scanStep hi hr 64#32 (scanStep hi hr 32#32
    (scanStep hi hr 16#32 (scanStep hi hr 8#32 (scanStep hi hr 4#32 (scanStep hi hr 2#32 (scanStep hi hr 1#32 y)))))))))

/-- After the ten steps entry `(p, q)` is the running maximum of lane `q` down to row `p`. -/
theorem scan10_apply (hi : SB.Iotas .tc 32 [0]) (hr : SB.Rotates 0 none) (y : FVec Ideal SB .f32)
    (p : Fin 1024) (q : Fin 512) :
    scan10 hi hr y (ix2 p q) = (Finset.range (p.val + 1)).sup (lanes y q) := by
  have h1 := (isWin_one y).step hi hr 1#32 rfl (by decide) (by decide)
  have h2 := h1.step hi hr 2#32 rfl (by decide) (by decide)
  have h3 := h2.step hi hr 4#32 rfl (by decide) (by decide)
  have h4 := h3.step hi hr 8#32 rfl (by decide) (by decide)
  have h5 := h4.step hi hr 16#32 rfl (by decide) (by decide)
  have h6 := h5.step hi hr 32#32 rfl (by decide) (by decide)
  have h7 := h6.step hi hr 64#32 rfl (by decide) (by decide)
  have h8 := h7.step hi hr 128#32 rfl (by decide) (by decide)
  have h9 := h8.step hi hr 256#32 rfl (by decide) (by decide)
  have h10 := h9.step hi hr 512#32 rfl (by decide) (by decide)
  exact (h10 p q).trans (win_eq_prefix _ p.isLt)

end Cert.Scan

end
-- ==== Proof.Spec.lean ====
/-
  The specification: the running maximum along the third axis.

  For an array `x` of shape [32, 1, 1024, 2048] over the extended reals, `cummax x` at the index
  `(b, u, r, w)` is `max (x b u 0 w) (x b u 1 w) … (x b u r w)`. It is written as the supremum, over the
  naturals `k ≤ r`, of the sequence `column x j` that runs down the third axis through `j` (and is `⊥`,
  the neutral element, past the axis' end, where no `k ≤ r` lies): the form in which both a doubling scan
  and a fold over a sliding window are read.
-/
import Idealize.ShloMosaic.Lib.ValueIdx

noncomputable section

namespace Cert.Spec

open Idealize.ShloMosaic Idealize.ShloMosaic.ValueIdx

/-- The array's shape. -/
abbrev SX : Shape := ⟨4, ![32, 1, 1024, 2048]⟩

/-- The sequence down the third axis through the index `j`: entry `k` is `x` at `j` with its third
    coordinate replaced by `k`. -/
def column (x : SX.Idx → EReal) (j : SX.Idx) (k : ℕ) : EReal :=
  if h : k < 1024 then x (ix4 (j 0 : Fin 32) (j 1 : Fin 1) (⟨k, h⟩ : Fin 1024) (j 3 : Fin 2048)) else ⊥

/-- The running maximum along the third axis. -/
def cummax (x : SX.Idx → EReal) : SX.Idx → EReal :=
  fun j => (Finset.range ((j 2).val + 1)).sup (column x j)

end Cert.Spec

end
-- ==== Proof.KernelValue.lean ====
/-
  The kernel's value: every block of the result is the running maximum of the same block of the argument.

  The grid has 32 × 4 points; point `t = (b, w)` stages the block `[b, 0, 0 … 1023, 512 w … 512 w + 511]` of the
  argument, of shape [1, 1, 1024, 512], runs the body on it, and writes the body's result back to the same
  block of the result array. The body reads its block as 1024 rows by 512 lanes, runs the ten doubling steps
  1, 2, 4, …, 512 down the rows, and stores the outcome under the block's own shape (`body_eq`). So the entry
  `(u, v, p, q)` of what it stores is the maximum of the entries `(u, v, 0, q), …, (u, v, p, q)` of what it
  loaded (`body_apply`).

  A block keeps the whole third axis (its index on that axis is always zero), so the rows `0, …, p` of a
  block's lane are the rows `0, …, p` of the array's column through the same entry, and the body's result at
  an entry of the block is the running maximum of the array at the entry's place in the array
  (`scan_block`, stated for any placement of the block that is a shift by an offset with zero offset on the
  second and third axes). Hence what point `t` writes back is block `t` of the running maximum of the argument
  (`flushed_eq`); the 128 blocks cover the result array — the entry `(b, 0, r, w)` lies in the block of the point
  `(b, w / 512)` (`cover`) —, so after the run the result array is the running maximum of the argument
  (`final`, `run`).
-/
import proofs.«134793_j49452253446764_1_alg».proof.Proof.Gen.KernelIdeal.Value
import Idealize.ShloMosaic.Lib.Pipeline.Value
import Idealize.ShloMosaic.Lib.ValueIdx
import proofs.«134793_j49452253446764_1_alg».proof.Proof.Stage
import proofs.«134793_j49452253446764_1_alg».proof.Proof.Spec

noncomputable section

namespace Cert.KernelIdeal.ScanValue

open Cert.KernelIdeal Cert.KernelIdeal.Gen Idealize.ShloMosaic Idealize.ShloMosaic.TcCoe Idealize.SL.Sem
open Idealize.ShloMosaic.ValueIdx
open Idealize.ShloMosaic.Pipeline (Dat)

theorem hz : (![0, 0, 0, 0] : Fin 4 → Nat) = fun _ => 0 := funext fun a => by fin_cases a <;> rfl

/-- The body's one store holds the ten doubling steps of the loaded block, read as rows by lanes and cast back. -/
theorem body_eq (x0 : Vec Ideal S1x1x1024x512 .f32) :
    out0_1 x0 = shapeCast S1x1x1024x512
      (Cert.Scan.scan10 iota_S1024x512_d0_w32 rotates_S1024x512_d0 (shapeCast S1024x512 x0 shapeCasts_S1x1x1024x512_S1024x512))
      shapeCasts_S1024x512_S1x1x1024x512 := by
  unfold out0_1
  rw [View.canon_unit_zero hz]
  simp only [View.ld_unit_zero (S := S1x1x1024x512) hz]
  rfl

/-- Row `p`, lane `q` of the 1024 × 512 reading is the entry `(u, v, p, q)` of the block: both unit axes add
    nothing to the row-major position. -/
theorem rowMajor_eq (u v : Fin 1) (p : Fin 1024) (q : Fin 512) :
    (S1024x512.rowMajor (ix2 p q)).val = (S1x1x1024x512.rowMajor (ix4 u v p q)).val := by
  rw [Shape.rowMajor_val_two, Shape.rowMajor_val_four]
  show p.val * 512 + q.val = ((u.val * 1 + v.val) * 1024 + p.val) * 512 + q.val
  have hu := u.isLt
  have hv := v.isLt
  omega

/-- The body's result at `(u, v, p, q)`: the maximum of the loaded block's entries `(u, v, 0, q), …, (u, v, p, q)`. -/
theorem body_apply (x0 : Vec Ideal S1x1x1024x512 .f32) (u v : Fin 1) (p : Fin 1024) (q : Fin 512) :
    out0_1 x0 (ix4 u v p q)
      = (Finset.range (p.val + 1)).sup (fun k => if h : k < 1024 then x0 (ix4 u v ⟨k, h⟩ q) else ⊥) := by
  rw [body_eq, shapeCast_apply _ _ (ix4 u v p q) (ix2 p q) (rowMajor_eq u v p q), Cert.Scan.scan10_apply]
  refine Finset.sup_congr rfl fun k _ => ?_
  unfold Cert.Scan.lanes
  split
  · next h => exact shapeCast_apply _ _ (ix2 ⟨k, h⟩ q) (ix4 u v ⟨k, h⟩ q) (rowMajor_eq u v ⟨k, h⟩ q).symm
  · rfl

/-- A block placed in the array by a shift `e` with no offset on the second and third axes, holding the array's
    entries there: the body's result at an entry of the block is the array's running maximum at the entry's
    place. -/
theorem scan_block (x0 : Vec Ideal S1x1x1024x512 .f32) (X : Cert.Spec.SX.Idx → EReal)
    (e : S1x1x1024x512.Idx → Cert.Spec.SX.Idx) (off : Fin 4 → ℕ) (h1 : off 1 = 0) (h2 : off 2 = 0)
    (he : ∀ (y : S1x1x1024x512.Idx) (a : Fin 4), (e y a).val = off a + (y a).val)
    (hx : ∀ y : S1x1x1024x512.Idx, x0 y = X (e y)) (j : S1x1x1024x512.Idx) :
    out0_1 x0 j = Cert.Spec.cummax X (e j) := by
  obtain ⟨u, v, p, q, rfl⟩ : ∃ (u v : Fin 1) (p : Fin 1024) (q : Fin 512), j = ix4 u v p q :=
    ⟨j 0, j 1, j 2, j 3, eq_ix4 j⟩
  rw [body_apply]
  unfold Cert.Spec.cummax
  have e2 : (e (ix4 u v p q) 2).val = p.val := by
    rw [he]
    show off 2 + p.val = p.val
    omega
  rw [e2]
  refine Finset.sup_congr rfl fun k hk => ?_
  have hk' : k < 1024 := by
    have := Finset.mem_range.1 hk
    have := p.isLt
    omega
  show (if h : k < 1024 then x0 (ix4 u v ⟨k, h⟩ q) else ⊥) = Cert.Spec.column X (e (ix4 u v p q)) k
  unfold Cert.Spec.column
  rw [dif_pos hk', dif_pos hk', hx]
  congr 1
  funext a
  apply Fin.ext
  match a with
  | ⟨0, _⟩ =>
    show (e (ix4 u v ⟨k, hk'⟩ q) 0).val = (e (ix4 u v p q) 0).val
    rw [he, he]
  | ⟨1, _⟩ =>
    show (e (ix4 u v ⟨k, hk'⟩ q) 1).val = (e (ix4 u v p q) 1).val
    rw [he, he]
  | ⟨2, _⟩ =>
    show (e (ix4 u v ⟨k, hk'⟩ q) 2).val = k
    rw [he]
    show off 2 + k = k
    omega
  | ⟨3, _⟩ =>
    show (e (ix4 u v ⟨k, hk'⟩ q) 3).val = (e (ix4 u v p q) 3).val
    rw [he, he]

variable (m : (ℓ : Loc nD τ sig) → Buf (Elt Ideal) ℓ) (ρ : Dev nD → PrngReg)

/-- The two index maps, decided over the 128 points: the argument's block moves with the result's, and a block's
    index on the second and third axes is zero. -/
theorem idx_facts : ∀ t : Fin cfg0.N, win0_0.index t (0 : Fin 4) = win0_1.index t (0 : Fin 4)
    ∧ win0_0.index t (1 : Fin 4) = win0_1.index t (1 : Fin 4)
    ∧ win0_0.index t (2 : Fin 4) = win0_1.index t (2 : Fin 4)
    ∧ win0_0.index t (3 : Fin 4) = win0_1.index t (3 : Fin 4)
    ∧ win0_1.index t (1 : Fin 4) = 0 ∧ win0_1.index t (2 : Fin 4) = 0 :=
  (by decide +kernel : ∀ t : Fin grid0.N, _)

/-- Every pair of a batch index and a lane tile is some point's block index. -/
theorem idx_onto : ∀ (q0 : Fin 32) (q3 : Fin 4), ∃ t : Fin cfg0.N,
    win0_1.index t (0 : Fin 4) = q0.val ∧ win0_1.index t (3 : Fin 4) = q3.val :=
  (by decide +kernel : ∀ (q0 : Fin 32) (q3 : Fin 4), ∃ t : Fin grid0.N,
    win0_1.index t (0 : Fin 4) = q0.val ∧ win0_1.index t (3 : Fin 4) = q3.val)

/-- What point `t` writes back is block `t` of the running maximum of the argument. -/
theorem flushed_eq (c : Dev nD) (t : Fin cfg0.N) :
    (dats m 0 c).flushed 1 t
      = ((cfg0.win 1).blk t).view.read (Elt Ideal) (Cert.Spec.cummax (V m c main_arg0)) := by
  rw [Cert.KernelIdeal.Value.flushed1]
  obtain ⟨f0, f1, f2, f3, z1, z2⟩ := idx_facts t
  funext j
  show out0_1 (iblk m c 0 t) j = Cert.Spec.cummax (V m c main_arg0) (((cfg0.win 1).blk t).view.emb j)
  refine scan_block (iblk m c 0 t) (V m c main_arg0) (fun y => ((cfg0.win 1).blk t).view.emb y)
    (fun a => win0_1.index t a * S1x1x1024x512.size a) ?_ ?_ (fun y a => ?_) (fun y => ?_) j
  · show win0_1.index t (1 : Fin 4) * 1 = 0
    omega
  · show win0_1.index t (2 : Fin 4) * 1024 = 0
    omega
  · match a with
    | ⟨0, _⟩ => show win0_1.index t (0 : Fin 4) * 1 + 1 * (y 0).val = win0_1.index t (0 : Fin 4) * 1 + (y 0).val; omega
    | ⟨1, _⟩ => show win0_1.index t (1 : Fin 4) * 1 + 1 * (y 1).val = win0_1.index t (1 : Fin 4) * 1 + (y 1).val; omega
    | ⟨2, _⟩ => show win0_1.index t (2 : Fin 4) * 1024 + 1 * (y 2).val = win0_1.index t (2 : Fin 4) * 1024 + (y 2).val; omega
    | ⟨3, _⟩ => show win0_1.index t (3 : Fin 4) * 512 + 1 * (y 3).val = win0_1.index t (3 : Fin 4) * 512 + (y 3).val; omega
  · show V m c main_arg0 (((cfg0.win 0).blk t).view.emb y) = V m c main_arg0 (((cfg0.win 1).blk t).view.emb y)
    refine congrArg _ (funext fun a => Fin.ext ?_)
    match a with
    | ⟨0, _⟩ => show win0_0.index t (0 : Fin 4) * 1 + 1 * (y 0).val = win0_1.index t (0 : Fin 4) * 1 + 1 * (y 0).val; omega
    | ⟨1, _⟩ => show win0_0.index t (1 : Fin 4) * 1 + 1 * (y 1).val = win0_1.index t (1 : Fin 4) * 1 + 1 * (y 1).val; omega
    | ⟨2, _⟩ => show win0_0.index t (2 : Fin 4) * 1024 + 1 * (y 2).val = win0_1.index t (2 : Fin 4) * 1024 + 1 * (y 2).val; omega
    | ⟨3, _⟩ => show win0_0.index t (3 : Fin 4) * 512 + 1 * (y 3).val = win0_1.index t (3 : Fin 4) * 512 + 1 * (y 3).val; omega

/-- An entry of the array is in point `t`'s block iff each coordinate is in the block's range on its axis. -/
theorem mem_blk (t : Fin cfg0.N) (i : S32x1x1024x2048.Idx) :
    i ∈ ((cfg0.win 1).blk t).view.set ↔ ∀ a : Fin 4, win0_1.index t a * S1x1x1024x512.size a ≤ (i a).val
      ∧ (i a).val < win0_1.index t a * S1x1x1024x512.size a + S1x1x1024x512.size a := by
  show i ∈ ((View.whole main_v0).slice (win0_1.rect t)).set ↔ _
  rw [View.set_slice_whole, Rect.mem_set_unit]
  exact Iff.rfl

/-- The blocks cover the result array: the entry `(b, 0, r, w)` is in the block of the point `(b, w / 512)`. -/
theorem cover (i : S32x1x1024x2048.Idx) :
    ∃ t : Fin cfg0.N, (cfg0.win 1).flush t = true ∧ i ∈ ((cfg0.win 1).blk t).view.set := by
  have hi0 : (i 0).val < 32 := (i 0).isLt
  have hi1 : (i 1).val < 1 := (i 1).isLt
  have hi2 : (i 2).val < 1024 := (i 2).isLt
  have hi3 : (i 3).val < 2048 := (i 3).isLt
  obtain ⟨t, q0, q3⟩ := idx_onto ⟨(i 0).val, hi0⟩ ⟨(i 3).val / 512, by omega⟩
  obtain ⟨-, -, -, -, z1, z2⟩ := idx_facts t
  have q0' : win0_1.index t (0 : Fin 4) = (i 0).val := q0
  have q3' : win0_1.index t (3 : Fin 4) = (i 3).val / 512 := q3
  refine ⟨t, flush0_1 t, ?_⟩
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 1 ≤ (i 1).val ∧ (i 1).val < win0_1.index t (1 : Fin 4) * 1 + 1; omega
  | ⟨2, _⟩ => show win0_1.index t (2 : Fin 4) * 1024 ≤ (i 2).val ∧ (i 2).val < win0_1.index t (2 : Fin 4) * 1024 + 1024; omega
  | ⟨3, _⟩ => show win0_1.index t (3 : Fin 4) * 512 ≤ (i 3).val ∧ (i 3).val < win0_1.index t (3 : Fin 4) * 512 + 512; omega

/-- After the run the result array is the running maximum of the argument along the third axis. -/
theorem final (c : Dev nD) : (dats m 0 c).arrAt 1 cfg0.N = Cert.Spec.cummax (V m c main_arg0) :=
  (dats m 0 c).arrAt_eq_of_cover 1 (Cert.Spec.cummax (V m c main_arg0)) (fun t _ => flushed_eq m c t) cover

/-- Every weakly fair execution of the kernel's program terminates with the result buffer at the running maximum
    of the argument, and the argument unchanged. -/
theorem run : θ_run defs (onTc (τ := τ) (main (F := Ideal))) ⟨m, fun _ => 0, ρ⟩ fun r => ∀ c : Dev nD,
      r.2.mem ((c : Thread nD τ).loc main_v0) = Cert.Spec.cummax (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩)
    (Cert.KernelIdeal.Value.run_blocks m ρ)

end Cert.KernelIdeal.ScanValue

end
-- ==== Proof.RefWindow.lean ====
/-
  The sliding-window maximum that spells a running maximum, read at an index.

  `reduce_window` with window [1, 1, 1024, 1], stride one and 1023 entries of low padding on the third axis
  gives, at `(b, u, r, w)`, the fold of `max` from the initial value over the 1024 window positions
  `i = 0, …, 1023`: position `i` looks at row `r + i - 1023` of the array when that is a row (`1023 ≤ r + i`:
  then it is one of the rows `0, …, r`) and at the padding, which holds the initial value, otherwise. With
  the initial value `⊥` (the word of `-inf`), the neutral element of `max`, the fold is the supremum of
  the terms (a left fold of `⊔` is a supremum), every term is one of `x b u 0 w, …, x b u r w` or `⊥`, and
  row `k ≤ r` is the term of position `k + 1023 - r`: the fold is the running maximum.
-/
import Idealize.ShloMosaic.Lib.ValueIdx
import Idealize.ShloMosaic.PureOps.Contract
import proofs.«134793_j49452253446764_1_alg».proof.Proof.LibPrefixMax
import proofs.«134793_j49452253446764_1_alg».proof.Proof.Spec

noncomputable section

namespace Cert.RefWindow

open Idealize.ShloMosaic Idealize.ShloMosaic.ValueIdx Cert.LibPrefixMax Cert.Spec

/-- The window's positions: 1024 down the third axis, one on every other. -/
abbrev SW : Shape := ⟨4, ![1, 1, 1024, 1]⟩
/-- The initial value's shape: a scalar. -/
abbrev S0 : Shape := ⟨0, ![]⟩

/-- What the fold meets at window position `i` for the result index `j`: the array's entry at
    `j + i - (0, 0, 1023, 0)` where that is inside the array, `⊥` (the padding) where it is not. -/
def term (x : SX.Idx → EReal) (j : SX.Idx) (i : SW.Idx) : EReal :=
  if hin : ∀ a : Fin 4, (![0, 0, 1023, 0] : Fin 4 → ℕ) a ≤ (j a).val * (![1, 1, 1, 1] : Fin 4 → ℕ) a + (i a).val
      ∧ (j a).val * (![1, 1, 1, 1] : Fin 4 → ℕ) a + (i a).val - (![0, 0, 1023, 0] : Fin 4 → ℕ) a
          < (![32, 1, 1024, 2048] : Fin 4 → ℕ) a
  then x (fun a => ⟨(j a).val * (![1, 1, 1, 1] : Fin 4 → ℕ) a + (i a).val - (![0, 0, 1023, 0] : Fin 4 → ℕ) a, (hin a).2⟩)
  else ⊥

/-- Every term is one of the rows `0, …, r` of the column, or `⊥`. -/
theorem term_le (x : SX.Idx → EReal) (j : SX.Idx) (i : SW.Idx) : term x j i ≤ cummax x j := by
  unfold term
  split
  · next hin =>
    have b2 : 1023 ≤ (j 2).val * 1 + (i 2).val ∧ (j 2).val * 1 + (i 2).val - 1023 < 1024 := hin 2
    have i0 : (i 0).val < 1 := (i 0).isLt
    have i1 : (i 1).val < 1 := (i 1).isLt
    have i2 : (i 2).val < 1024 := (i 2).isLt
    have i3 : (i 3).val < 1 := (i 3).isLt
    have hk : (j 2).val + (i 2).val - 1023 < 1024 := by omega
    refine le_trans (le_of_eq ?_) (Finset.le_sup (f := column x j)
      (Finset.mem_range.2 (by omega : (j 2).val + (i 2).val - 1023 < (j 2).val + 1)))
    unfold column
    rw [dif_pos hk]
    congr 1
    funext a
    apply Fin.ext
    match a with
    | ⟨0, _⟩ => show (j 0).val * 1 + (i 0).val - 0 = (j 0).val; omega
    | ⟨1, _⟩ => show (j 1).val * 1 + (i 1).val - 0 = (j 1).val; omega
    | ⟨2, _⟩ => show (j 2).val * 1 + (i 2).val - 1023 = (j 2).val + (i 2).val - 1023; omega
    | ⟨3, _⟩ => show (j 3).val * 1 + (i 3).val - 0 = (j 3).val; omega
  · exact bot_le

/-- Row `k ≤ r` of the column is the term of window position `k + 1023 - r`. -/
theorem term_at (x : SX.Idx → EReal) (j : SX.Idx) (k : ℕ) (hk : k < (j 2).val + 1)
    (hk' : k + 1023 - (j 2).val < 1024) :
    term x j (ix4 (0 : Fin 1) (0 : Fin 1) (⟨k + 1023 - (j 2).val, hk'⟩ : Fin 1024) (0 : Fin 1)) = column x j k := by
  have j0 : (j 0).val < 32 := (j 0).isLt
  have j1 : (j 1).val < 1 := (j 1).isLt
  have j2 : (j 2).val < 1024 := (j 2).isLt
  have j3 : (j 3).val < 2048 := (j 3).isLt
  unfold term
  rw [dif_pos (fun a => by
    match a with
    | ⟨0, _⟩ => show 0 ≤ (j 0).val * 1 + 0 ∧ (j 0).val * 1 + 0 - 0 < 32; omega
    | ⟨1, _⟩ => show 0 ≤ (j 1).val * 1 + 0 ∧ (j 1).val * 1 + 0 - 0 < 1; omega
    | ⟨2, _⟩ =>
      show 1023 ≤ (j 2).val * 1 + (k + 1023 - (j 2).val) ∧ (j 2).val * 1 + (k + 1023 - (j 2).val) - 1023 < 1024
      omega
    | ⟨3, _⟩ => show 0 ≤ (j 3).val * 1 + 0 ∧ (j 3).val * 1 + 0 - 0 < 2048; omega)]
  unfold column
  rw [dif_pos (by omega : k < 1024)]
  congr 1
  funext a
  apply Fin.ext
  match a with
  | ⟨0, _⟩ => show (j 0).val * 1 + 0 - 0 = (j 0).val; omega
  | ⟨1, _⟩ => show (j 1).val * 1 + 0 - 0 = (j 1).val; omega
  | ⟨2, _⟩ => show (j 2).val * 1 + (k + 1023 - (j 2).val) - 1023 = k; omega
  | ⟨3, _⟩ => show (j 3).val * 1 + 0 - 0 = (j 3).val; omega

/-- The supremum of the terms over all window positions is the running maximum. -/
theorem sup_term (x : SX.Idx → EReal) (j : SX.Idx) :
    Finset.univ.sup (fun n : Fin SW.numel => term x j (SW.rowMajor.symm n)) = cummax x j := by
  apply le_antisymm
  · exact Finset.sup_le fun n _ => term_le x j _
  · refine Finset.sup_le fun k hk => ?_
    rw [Finset.mem_range] at hk
    have j2 : (j 2).val < 1024 := (j 2).isLt
    have hk' : k + 1023 - (j 2).val < 1024 := by omega
    have hle := Finset.le_sup (f := fun n : Fin SW.numel => term x j (SW.rowMajor.symm n))
      (Finset.mem_univ (SW.rowMajor (ix4 (0 : Fin 1) (0 : Fin 1) (⟨k + 1023 - (j 2).val, hk'⟩ : Fin 1024) (0 : Fin 1))))
    refine le_trans (le_of_eq ?_) hle
    show column x j k = term x j (SW.rowMajor.symm (SW.rowMajor _))
    rw [Equiv.symm_apply_apply]
    exact (term_at x j k hk hk').symm

/-- The window fold of `max` from `⊥`, with these window numbers, is the running maximum along the third
    axis. -/
theorem reduceWindow_eq_cummax (x : FVec Ideal SX .f32) (init : FVec Ideal S0 .f32)
    (h : SX.ReduceWindows ![1, 1, 1024, 1] ![1, 1, 1, 1] ![0, 0, 1023, 0] ![0, 0, 0, 0] SX) (hu : 0 < S0.numel)
    (hinit : init (Shape.Idx.first hu) = ⊥) :
    Host.reduceWindow (FloatOps.maximumf (F := Ideal) (φ := .f32)) ![1, 1, 1024, 1] ![1, 1, 1, 1] ![0, 0, 1023, 0]
      ![0, 0, 0, 0] x init h hu = cummax x := by
  funext j
  unfold Host.reduceWindow
  dsimp only
  rw [hinit]
  change List.foldl (fun r n => r ⊔ term x j (SW.rowMajor.symm n)) ⊥ (List.finRange SW.numel) = _
  rw [foldl_sup_finRange]
  exact sup_term x j

end Cert.RefWindow

end
-- ==== Proof.RefRun.lean ====
/-
  The reference, run.

  The reference's program is three host operations: the scalar `-inf`, its broadcast to a scalar, and the
  sliding-window maximum of the argument from that initial value, with window [1, 1, 1024, 1], stride one and
  1023 entries of low padding on the third axis. Every weakly fair execution of it terminates with the result
  buffer holding that window maximum of the argument and the argument unchanged (`run`, at any float
  instance). Over the extended reals the word of `-inf` is `⊥`, the neutral element of `max`, and the
  window maximum is the running maximum along the third axis (`run_cummax`).
-/
import proofs.«134793_j49452253446764_1_alg».proof.Proof.Gen.ReferenceIdeal
import Idealize.ShloMosaic.Lib.StableHlo.Run
import proofs.«134793_j49452253446764_1_alg».proof.Proof.RefWindow

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The program's three operations, in order (the called function's operations in its call's place). -/
abbrev ops : List (HloOp τ sig (Elt F)) :=
  [ TRef.nullary (TRef.of (T := ⟨S_, .f32⟩) main_call0_cst) (constant S_ .f32 0xFF800000#32),
    TRef.unary (TRef.of (T := ⟨S_, .f32⟩) main_call0_cst) (TRef.of (T := ⟨S_, .f32⟩) main_call0_v0) (broadcastInDim S_ ![] bcast_S_S_),
    TRef.binary (TRef.of (T := ⟨S32x1x1024x2048, .f32⟩) main_arg0) (TRef.of (T := ⟨S_, .f32⟩) main_call0_v0) (TRef.of (T := ⟨S32x1x1024x2048, .f32⟩) main_v0) (fun x v => Host.reduceWindow FloatOps.maximumf ![1, 1, 1024, 1] ![1, 1, 1, 1] ![0, 0, 1023, 0] ![0, 0, 0, 0] x v reduceWindows_S32x1x1024x2048_S32x1x1024x2048_w1s1p0_0_w1s1p0_0_w1024s1p1023_0_w1s1p0_0 h_S_) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., binary_bufs_sub ..⟩

-- the window maximum is a fold over 1024 window positions at each of 2^26 result indices: it is kept folded
-- while the operations' chain is read back, which never looks inside it
attribute [local irreducible] Host.reduceWindow in
/-- Every weakly fair execution terminates with the result buffer at the window maximum of the argument from
    the broadcast `-inf`, and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0) = Host.reduceWindow FloatOps.maximumf ![1, 1, 1024, 1] ![1, 1, 1, 1] ![0, 0, 1023, 0] ![0, 0, 0, 0] (m ((c.tc : Thread nD τ).loc main_arg0)) (broadcastInDim S_ ![] bcast_S_S_ (constant S_ .f32 0xFF800000#32)) reduceWindows_S32x1x1024x2048_S32x1x1024x2048_w1s1p0_0_w1s1p0_0_w1024s1p1023_0_w1s1p0_0 h_S_
      ∧ r.2.mem ((c.tc : Thread nD τ).loc main_arg0) = m ((c.tc : Thread nD τ).loc main_arg0) :=
  (θ_run defs _ _).mono (fun _ h c => ⟨(h c main_v0).trans (by after_results <;> rfl),
      (h c main_arg0).trans (by after_results <;> rfl)⟩)
    (run_seq scopedRefs_eq scopedSems_eq defs main (fun _ => ops) main_eq (fun _ => ops_sub) m ρ)

/-- The initial value of the window maximum is `⊥`: the word `0xFF800000` is `-inf`. -/
theorem init_eq_bot :
    (broadcastInDim S_ ![] bcast_S_S_ (constant (F := Ideal) S_ .f32 0xFF800000#32)) (Shape.Idx.first h_S_) = ⊥ := by
  show Ideal.ofBits .f32 0xFF800000#32 = ⊥
  simp [Ideal.ofBits, Ideal.ieee]

/-- Over the extended reals the result is the running maximum of the argument along the third axis. -/
theorem run_cummax (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = Cert.Spec.cummax (m ((c.tc : Thread nD τ).loc main_arg0))
      ∧ r.2.mem ((c.tc : Thread nD τ).loc main_arg0) = m ((c.tc : Thread nD τ).loc main_arg0) :=
  (θ_run defs _ _).mono (fun _ h c => ⟨(h c).1.trans
      (Cert.RefWindow.reduceWindow_eq_cummax _ _ _ h_S_ init_eq_bot), (h c).2⟩) (run (F := Ideal) m ρ)

end Cert.ReferenceIdeal.RefValue

end
-- ==== Proof.lean ====
/-
  The running maximum along the third axis of an array of shape [32, 1, 1024, 2048], computed two ways.

  The kernel's program cuts the array into 32 × 4 blocks of shape [1, 1, 1024, 512], each keeping the whole third
  axis, and on each block runs a doubling scan down the 1024 rows: for d = 1, 2, 4, …, 512 every row p ≥ d takes
  the maximum of itself and row p - d (a rotation by d, its wrapped-around rows discarded by a comparison with
  the row number). After the step with amount d every row holds the maximum of the 2 d rows ending at it, cut off
  at row zero, so after the ten steps row p holds the maximum of rows 0, …, p (Proof/LibPrefixMax.lean,
  Proof/Stage.lean); block by block this is the running maximum of the whole array (Proof/KernelValue.lean).

  The reference's program is one sliding-window maximum with window [1, 1, 1024, 1], 1023 entries of low padding
  on the third axis and initial value -inf: at (b, u, r, w) the window reaches the rows r - 1023, …, r, of which
  those below zero are padding; with -inf the neutral element of the maximum, that is again the maximum of rows
  0, …, r (Proof/RefWindow.lean, Proof/RefRun.lean).

  Both are the function `Cert.Spec.cummax` (Proof/Spec.lean) of the argument, as extended reals. Only the
  lattice laws of the maximum are used — associativity, commutativity, idempotence, and the neutral element —,
  which hold for infinite entries as well: the precondition is never opened. The idealization rewrote nothing, so
  what it preserves is the empty conjunction.
-/
import proofs.«134793_j49452253446764_1_alg».proof.Defs
import proofs.«134793_j49452253446764_1_alg».proof.Proof.Gen.Kernel
import proofs.«134793_j49452253446764_1_alg».proof.Proof.Gen.Kernel.Skeleton
import proofs.«134793_j49452253446764_1_alg».proof.Proof.Gen.Kernel.Launch
import proofs.«134793_j49452253446764_1_alg».proof.Proof.Gen.Kernel.Points
import proofs.«134793_j49452253446764_1_alg».proof.Proof.Gen.Kernel.Frame
import proofs.«134793_j49452253446764_1_alg».proof.Proof.Gen.KernelIdeal
import proofs.«134793_j49452253446764_1_alg».proof.Proof.Gen.KernelIdeal.Skeleton
import proofs.«134793_j49452253446764_1_alg».proof.Proof.Gen.KernelIdeal.Launch
import proofs.«134793_j49452253446764_1_alg».proof.Proof.Gen.KernelIdeal.Points
import proofs.«134793_j49452253446764_1_alg».proof.Proof.Gen.KernelIdeal.Frame
import proofs.«134793_j49452253446764_1_alg».proof.Proof.Gen.ReferenceIdeal
import proofs.«134793_j49452253446764_1_alg».proof.Proof.Gen.Pre_finite_inputs
import proofs.«134793_j49452253446764_1_alg».proof.Proof.Gen.KernelIdeal.Value
import proofs.«134793_j49452253446764_1_alg».proof.Proof.KernelValue
import proofs.«134793_j49452253446764_1_alg».proof.Proof.RefRun
import Idealize.ShloMosaic.Adequacy
import Idealize.ShloMosaic.Init

noncomputable section

namespace Cert.Proof

open Idealize.ShloMosaic Idealize.SL.Sem Cert.Kernel

/-- The kernel's program at the word level terminates without a fault and leaves its argument as it was. -/
theorem frame_kernel : Cert.frame_Kernel := fun m ρ _ => Cert.Kernel.Gen.frame m ρ

/-- The same program over the extended reals. -/
theorem frame_kernelIdeal : Cert.frame_KernelIdeal := fun m ρ _ => Cert.KernelIdeal.Gen.frame m ρ

/-- The reference's program: its run, with the result's value dropped. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- From memories agreeing on the argument both programs end with the running maximum of the argument along the
    third axis in their result buffers. -/
theorem algebraic : Cert.algebraic_KernelIdeal_ReferenceIdeal := by
  intro m ρ m' ρ' _ hagree
  refine ⟨fun c => Cert.Spec.cummax (m ((c.tc : Thread Cert.KernelIdeal.nD Cert.KernelIdeal.τ).loc Cert.KernelIdeal.main_arg0)),
    Cert.KernelIdeal.ScanValue.run m ρ, ?_⟩
  refine (θ_run Cert.ReferenceIdeal.defs _ _).mono (fun _ h c => ⟨(h c).1.trans ?_, (h c).2⟩)
    (Cert.ReferenceIdeal.RefValue.run_cummax m' ρ')
  rw [hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
